-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S32768x1024 .f32) (main_arg1 : FVec F S32768x1024 .f32) (main_arg2 : FVec F S32768x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S256x16x64 : Shape := ⟨3, ![256, 16, 64]⟩
abbrev S256x16x16 : Shape := ⟨3, ![256, 16, 16]⟩
abbrev S256x16 : Shape := ⟨2, ![256, 16]⟩
abbrev S256x16x1 : Shape := ⟨3, ![256, 16, 1]⟩

abbrev nBuf : Space → Nat
  | .hbm => 16
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024, .f32⟩
  | .local _ .vmem, ⟨12, _⟩ => ⟨S1024x1024, .bf16⟩
  | .local _ .vmem, ⟨13, _⟩ => ⟨S1024, .f32⟩
  | .local _ .vmem, ⟨14, _⟩ => ⟨S256x1024, .f32⟩
  | .local _ .vmem, ⟨15, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S256x16x64 : S256x1024.ShapeCasts S256x16x64
  reduces_S256x16x16_S256x16 : S256x16x16.Reduces [2] S256x16
  shapeCasts_S256x16_S256x16x1 : S256x16.ShapeCasts S256x16x1
  broadcasts_S256x16x1_S256x16x16 : S256x16x1.Broadcasts S256x16x16
  shapeCasts_S256x16x64_S256x1024 : S256x16x64.ShapeCasts S256x1024
  dot_S256x1024_S1024x1024_S256x1024_1_0_0_1_n_n_wf : DotDims.WF S256x1024 S1024x1024 S256x1024 [1] [0] [0] [1] [] []
  dot_S256x16x64_S256x16x64_S256x16x16_2_2_1_1_0_0_wf : DotDims.WF S256x16x64 S256x16x64 S256x16x16 [2] [2] [1] [1] [0] [0]
  dot_S256x16x16_S256x16x64_S256x16x64_2_1_1_2_0_0_wf : DotDims.WF S256x16x16 S256x16x64 S256x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S32768x1024.size a
  hwx0_2 : ∀ i : grid0.Coords, EltTy.bits .f32 = 32 ∨ (Rect.block (s := S32768x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S32768x1024.size a
  hwx0_11 : ∀ i : grid0.Coords, EltTy.bits .f32 = 32 ∨ (Rect.block (s := S32768x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x16x64_S256x16x64_S256x16x16_2_2_1_1_0_0 : DotDims S256x16x64 S256x16x64 S256x16x16 where
  lhsContracting := [2]
  rhsContracting := [2]
  lhsNonContracting := [1]
  rhsNonContracting := [1]
  lhsBatch := [0]
  rhsBatch := [0]
  wf := dot_S256x16x64_S256x16x64_S256x16x16_2_2_1_1_0_0_wf
def dot_S256x16x16_S256x16x64_S256x16x64_2_1_1_2_0_0 : DotDims S256x16x16 S256x16x64 S256x16x64 where
  lhsContracting := [2]
  rhsContracting := [1]
  lhsNonContracting := [1]
  rhsNonContracting := [2]
  lhsBatch := [0]
  rhsBatch := [0]
  wf := dot_S256x16x16_S256x16x64_S256x16x64_2_1_1_2_0_0_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S32768x16x64 : Shape := ⟨3, ![32768, 16, 64]⟩
abbrev S32768x16x16 : Shape := ⟨3, ![32768, 16, 16]⟩
abbrev S_ : Shape := ⟨0, ![]⟩
abbrev S32768x16 : Shape := ⟨2, ![32768, 16]⟩
abbrev S32768x16x1 : Shape := ⟨3, ![32768, 16, 1]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S32768x1024, .f32⟩
  | .hbm, ⟨12, _⟩ => ⟨S1x1024, .f32⟩
  | .hbm, ⟨13, _⟩ => ⟨S32768x1024, .f32⟩
  | .hbm, ⟨14, _⟩ => ⟨S32768x1024, .f32⟩
  | .hbm, ⟨15, _⟩ => ⟨S32768x16x64, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x16x64, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S32768x16x64, .f32⟩
  | .hbm, ⟨26, _⟩ => ⟨S32768x16x16, .f32⟩
  | .hbm, ⟨27, _⟩ => ⟨S_, .f32⟩
  | .hbm, ⟨28, _⟩ => ⟨S_, .f32⟩
  | .hbm, ⟨29, _⟩ => ⟨S32768x16x16, .f32⟩
  | .hbm, ⟨30, _⟩ => ⟨S32768x16x16, .f32⟩
  | .hbm, ⟨31, _⟩ => ⟨S_, .f32⟩
  | .hbm, ⟨32, _⟩ => ⟨S32768x16, .f32⟩
  | .hbm, ⟨33, _⟩ => ⟨S_, .f32⟩
  | .hbm, ⟨34, _⟩ => ⟨S32768x16, .f32⟩
  | .hbm, ⟨35, _⟩ => ⟨S32768x16, .f32⟩
  | .hbm, ⟨36, _⟩ => ⟨S32768x16x1, .f32⟩
  | .hbm, ⟨37, _⟩ => ⟨S32768x16x16, .f32⟩
  | .hbm, ⟨38, _⟩ => ⟨S32768x16x16, .f32⟩
  | .hbm, ⟨39, _⟩ => ⟨S32768x16x16, .f32⟩
  | .hbm, ⟨40, _⟩ => ⟨S_, .f32⟩
  | .hbm, ⟨41, _⟩ => ⟨S32768x16, .f32⟩
  | .hbm, ⟨42, _⟩ => ⟨S32768x16x1, .f32⟩
  | .hbm, ⟨43, _⟩ => ⟨S32768x16x16, .f32⟩
  | .hbm, ⟨44, _⟩ => ⟨S32768x16x16, .f32⟩
  | .hbm, ⟨45, _⟩ => ⟨S32768x16x64, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  shapeCasts_S32768x1024_S32768x16x64 : S32768x1024.ShapeCasts S32768x16x64
  bcast_S_S32768x16x16 : S_.BroadcastsInDim S32768x16x16 (![] : Fin 0 → Fin S32768x16x16.rank)
  reducesTo_S32768x16x16_S32768x16_d2 : S32768x16x16.ReducesTo [2] S32768x16
  h_S_ : 0 < S_.numel
  bcast_S_S32768x16 : S_.BroadcastsInDim S32768x16 (![] : Fin 0 → Fin S32768x16.rank)
  bcast_S32768x16_S32768x16x1_0_1 : S32768x16.BroadcastsInDim S32768x16x1 (![0, 1] : Fin 2 → Fin S32768x16x1.rank)
  bcast_S32768x16x1_S32768x16x16_0_1_2 : S32768x16x1.BroadcastsInDim S32768x16x16 (![0, 1, 2] : Fin 3 → Fin S32768x16x16.rank)
  shapeCasts_S32768x16x64_S32768x1024 : S32768x16x64.ShapeCasts S32768x1024
  dot_S32768x1024_S1024x1024_S32768x1024_1_0_0_1_n_n_wf : DotDims.WF S32768x1024 S1024x1024 S32768x1024 [1] [0] [0] [1] [] []
  dot_S32768x16x64_S32768x16x64_S32768x16x16_2_2_1_1_0_0_wf : DotDims.WF S32768x16x64 S32768x16x64 S32768x16x16 [2] [2] [1] [1] [0] [0]
  dot_S32768x16x16_S32768x16x64_S32768x16x64_2_1_1_2_0_0_wf : DotDims.WF S32768x16x16 S32768x16x64 S32768x16x64 [2] [1] [1] [2] [0] [0]

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x16x64_S32768x16x64_S32768x16x16_2_2_1_1_0_0 : DotDims S32768x16x64 S32768x16x64 S32768x16x16 where
  lhsContracting := [2]
  rhsContracting := [2]
  lhsNonContracting := [1]
  rhsNonContracting := [1]
  lhsBatch := [0]
  rhsBatch := [0]
  wf := dot_S32768x16x64_S32768x16x64_S32768x16x16_2_2_1_1_0_0_wf
def dot_S32768x16x16_S32768x16x64_S32768x16x64_2_1_1_2_0_0 : DotDims S32768x16x16 S32768x16x64 S32768x16x64 where
  lhsContracting := [2]
  rhsContracting := [1]
  lhsNonContracting := [1]
  rhsNonContracting := [2]
  lhsBatch := [0]
  rhsBatch := [0]
  wf := dot_S32768x16x16_S32768x16x64_S32768x16x64_2_1_1_2_0_0_wf

class Facts : Prop extends Facts₀ where

variable [Facts]
-- ==== Proof.Spec.lean ====
/-
  Attention over the heads of one row, as a function of that row of the three inputs.

  A row of 1024 numbers is read as 16 heads of 64 lanes: column `h * 64 + d` is lane `d` of head `h`. From one
  row of the queries, keys and values:
  * each is projected: `proj x W b n = (∑ₖ x k * W k n) + b n`;
  * the score of heads `h` and `g` is the inner product of the projected query's head `h` with the projected
    key's head `g`, times 1/8 (the word of 0.125);
  * for each `h` the scores over `g` go through a softmax: the maximum `M` (taken from -∞), the exponentials
    `exp (s g - M)`, and each exponential divided by their sum;
  * head `h`, lane `d` of the mixed row is `∑_g prob h g * v (g * 64 + d)` over the projected values;
  * the mixed row is projected once more.
  Every other row of the inputs is irrelevant to the row's result, which is why a kernel that works on blocks of
  256 rows and a reference that works on all 32768 rows at once compute the same array.
-/
import Idealize.ShloMosaic.PureOps.Ideal
import Idealize.ShloMosaic.Lib.ValueIdx

noncomputable section

open scoped BigOperators

namespace Cert.Attn

open Idealize.ShloMosaic Idealize.ShloMosaic.ValueIdx

/-- A row of the model dimension. -/
abbrev Row : Type := Fin 1024 → EReal
/-- A weight matrix, `W k n` the entry in row `k`, column `n`. -/
abbrev Mat : Type := Fin 1024 → Fin 1024 → EReal

/-- Lane `d` of head `h` is column `h * 64 + d`. -/
def col (h : Fin 16) (d : Fin 64) : Fin 1024 := ⟨h.val * 64 + d.val, by omega⟩
/-- The head a column belongs to. -/
def headOf (n : Fin 1024) : Fin 16 := ⟨n.val / 64, by omega⟩
/-- The lane of a column within its head. -/
def laneOf (n : Fin 1024) : Fin 64 := ⟨n.val % 64, by omega⟩

theorem col_head_lane (n : Fin 1024) : col (headOf n) (laneOf n) = n :=
  Fin.ext (by show n.val / 64 * 64 + n.val % 64 = n.val; omega)

theorem headOf_col (h : Fin 16) (d : Fin 64) : headOf (col h d) = h :=
  Fin.ext (by show (h.val * 64 + d.val) / 64 = h.val; omega)

theorem laneOf_col (h : Fin 16) (d : Fin 64) : laneOf (col h d) = d :=
  Fin.ext (by show (h.val * 64 + d.val) % 64 = d.val; omega)

/-- The value the softmax's maximum starts from: the word of -∞. -/
def negInf : EReal := Ideal.ofBits .f32 0xFF800000#32
/-- The score scale: the word of 0.125. -/
def eighth : EReal := Ideal.ofBits .f32 0x3E000000#32

/-- A row times a weight matrix plus a bias. -/
def proj (x : Row) (W : Mat) (b : Row) : Row := fun n => (∑ k : Fin 1024, x k * W k n) + b n

/-- The scaled inner product of head `h` of `q` with head `g` of `k`. -/
def score (q k : Row) (h g : Fin 16) : EReal := (∑ d : Fin 64, q (col h d) * k (col g d)) * eighth

/-- The maximum of sixteen scores, from -∞. -/
def rowMax (s : Fin 16 → EReal) : EReal := max negInf ((Finset.univ : Finset (Fin 16)).fold max negInf s)

/-- The exponential of a score less the maximum. -/
def expo (s : Fin 16 → EReal) (g : Fin 16) : EReal := Ideal.exp (s g - rowMax s)

/-- The softmax of sixteen scores. -/
def prob (s : Fin 16 → EReal) (g : Fin 16) : EReal := Ideal.div (expo s g) (∑ g' : Fin 16, expo s g')

/-- The values' heads mixed by the softmax of each head's scores. -/
def mix (s : Fin 16 → Fin 16 → EReal) (v : Row) : Row :=
  fun n => ∑ g : Fin 16, prob (s (headOf n)) g * v (col g (laneOf n))

/-- One row of the result from one row of each input. -/
def attn (xq xk xv : Row) (Wq : Mat) (bq : Row) (Wk : Mat) (bk : Row) (Wv : Mat) (bv : Row) (Wo : Mat) (bo : Row) : Row :=
  proj (mix (score (proj xq Wq bq) (proj xk Wk bk)) (proj xv Wv bv)) Wo bo

/-- The last projection written out. -/
theorem attn_apply (xq xk xv : Row) (Wq : Mat) (bq : Row) (Wk : Mat) (bk : Row) (Wv : Mat) (bv : Row) (Wo : Mat) (bo : Row)
    (n : Fin 1024) :
    attn xq xk xv Wq bq Wk bk Wv bv Wo bo n
      = (∑ k : Fin 1024, mix (score (proj xq Wq bq) (proj xk Wk bk)) (proj xv Wv bv) k * Wo k n) + bo n := rfl

/-! ## Arrays as rows -/

/-- Row `r` of a two-axis array with 1024 columns. -/
def rowOf {A : ℕ} (x : (⟨2, ![A, 1024]⟩ : Shape).Idx → EReal) (r : Fin A) : Row := fun k => x (ix2 r k)
/-- A 1024 × 1024 array as a matrix. -/
def matOf (W : (⟨2, ![1024, 1024]⟩ : Shape).Idx → EReal) : Mat := fun k n => W (ix2 k n)
/-- A 1024 array as a row. -/
def vecOf (b : (⟨1, ![1024]⟩ : Shape).Idx → EReal) : Row := fun n => b (ix1 n)

/-- THE RESULT ARRAY: row `r` is `attn` of rows `r` of the three inputs. -/
def G {A : ℕ} (Q K V : (⟨2, ![A, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨2, ![A, 1024]⟩ : Shape).Idx → EReal :=
  fun i => attn (rowOf Q (i 0)) (rowOf K (i 0)) (rowOf V (i 0)) (matOf Wq) (vecOf bq) (matOf Wk) (vecOf bk)
    (matOf Wv) (vecOf bv) (matOf Wo) (vecOf bo) (i 1)

end Cert.Attn

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.LibBatchedMatmul.lean ====
/-
  A batched matrix product read at an index, over the extended reals.

  With one batch axis (axis 0 of both operands and of the result), one kept axis per operand and one contracted
  axis per operand, entry `(a, b, c)` of the product accumulated into the zero array is a sum over the one
  contraction coordinate `k` of a left entry times a right entry, both in batch `a`:
  * the right operand contracted on its LAST axis, `[A, B, K] · [A, C, K] → [A, B, C]`:
    `∑ₖ lhs (a, b, k) * rhs (a, c, k)` (`nt_zero_apply`);
  * the right operand contracted on its MIDDLE axis, `[A, B, K] · [A, K, C] → [A, B, C]`:
    `∑ₖ lhs (a, b, k) * rhs (a, k, c)` (`nn_zero_apply`).
  The operand indices are read off the dimension numbers: a batch axis reads the result at its position among the
  batch axes, a kept axis at its position after them, the contracted axis reads the contraction coordinate.
-/
import Idealize.ShloMosaic.Lib.ValueIdx
import Idealize.ShloMosaic.PureOps.Ideal.Laws

noncomputable section

open scoped BigOperators

namespace Cert.Lib.BatchedMatmul

open Idealize.ShloMosaic Idealize.ShloMosaic.ValueIdx

/-! ## The operand indices, axis by axis, for any dimension numbers -/

section Axes

variable {sl sr so : Shape} (d : DotDims sl sr so)

/-- A left batch axis reads the result at the axis's position among the batch axes. -/
theorem lhsIdx_batch_val (j : so.Idx) (k : d.contr.Idx) (a : Fin sl.rank) (hb : a ∈ d.lhsBatch)
    (p : Nat) (hp : p < so.rank) (hpe : d.lhsBatch.idxOf a = p) : (d.lhsIdx j k a).val = (j ⟨p, hp⟩).val := by
  unfold DotDims.lhsIdx
  rw [dif_pos hb]
  simp only [Fin.val_cast]
  subst hpe
  rfl

/-- A left kept axis reads the result at its position after the batch axes. -/
theorem lhsIdx_non_val (j : so.Idx) (k : d.contr.Idx) (a : Fin sl.rank) (hb : a ∉ d.lhsBatch) (hn : a ∈ d.lhsNonContracting)
    (p : Nat) (hp : p < so.rank) (hpe : d.lhsBatch.length + d.lhsNonContracting.idxOf a = p) :
    (d.lhsIdx j k a).val = (j ⟨p, hp⟩).val := by
  unfold DotDims.lhsIdx
  rw [dif_neg hb, dif_pos hn]
  simp only [Fin.val_cast]
  subst hpe
  rfl

/-- A right batch axis reads the result at the axis's position among the batch axes. -/
theorem rhsIdx_batch_val (j : so.Idx) (k : d.contr.Idx) (a : Fin sr.rank) (hb : a ∈ d.rhsBatch)
    (p : Nat) (hp : p < so.rank) (hpe : d.rhsBatch.idxOf a = p) : (d.rhsIdx j k a).val = (j ⟨p, hp⟩).val := by
  unfold DotDims.rhsIdx
  rw [dif_pos hb]
  simp only [Fin.val_cast]
  subst hpe
  rfl

/-- A right kept axis reads the result at its position after the batch axes and the left kept axes. -/
theorem rhsIdx_non_val (j : so.Idx) (k : d.contr.Idx) (a : Fin sr.rank) (hb : a ∉ d.rhsBatch) (hn : a ∈ d.rhsNonContracting)
    (p : Nat) (hp : p < so.rank)
    (hpe : d.lhsBatch.length + d.lhsNonContracting.length + d.rhsNonContracting.idxOf a = p) :
    (d.rhsIdx j k a).val = (j ⟨p, hp⟩).val := by
  unfold DotDims.rhsIdx
  rw [dif_neg hb, dif_pos hn]
  simp only [Fin.val_cast]
  subst hpe
  rfl

end Axes

/-! ## The right operand contracted on its last axis: `[A, B, K] · [A, C, K] → [A, B, C]` -/

section NT

variable {A B C K : Nat} (d : DotDims ⟨3, ![A, B, K]⟩ ⟨3, ![A, C, K]⟩ ⟨3, ![A, B, C]⟩)
  (hlc : d.lhsContracting = [2]) (hrc : d.rhsContracting = [2])
  (hln : d.lhsNonContracting = [1]) (hrn : d.rhsNonContracting = [1])
  (hlb : d.lhsBatch = [0]) (hrb : d.rhsBatch = [0])

include hlc in
theorem nt_contr_rank : d.contr.rank = 1 := by rw [d.rank_contr, hlc]; rfl

include hlc in
theorem nt_contr_size (h0 : 0 < d.contr.rank) : d.contr.size ⟨0, h0⟩ = K := by
  have h1 : 0 < d.lhsContracting.length := by rw [hlc]; exact Nat.one_pos
  refine (d.size_contr 0 h1).trans ?_
  have : d.lhsContracting[0] = (2 : Fin (⟨3, ![A, B, K]⟩ : Shape).rank) := by simp [hlc]
  rw [this]
  rfl

include hlc hrc hln hrn hlb hrb in
/-- ENTRY `(a, b, c)` of `[A, B, K] · [A, C, K]` into the zero array: `∑ₖ lhs (a, b, k) * rhs (a, c, k)`. -/
theorem nt_zero_apply {φ₁ φ₂ : FTy} (prec : Option ContractPrecision)
    (lhs : FVec Ideal ⟨3, ![A, B, K]⟩ φ₁) (rhs : FVec Ideal ⟨3, ![A, C, K]⟩ φ₂) (a : Fin A) (b : Fin B) (c : Fin C) :
    FloatOps.matmul d prec lhs rhs (constant ⟨3, ![A, B, C]⟩ .f32 0x00000000#32) (ix3 a b c)
      = ∑ k : Fin K, lhs (ix3 a b k) * rhs (ix3 a c k) := by
  rw [Ideal.matmul_constant_zero_apply]
  have hr : d.contr.rank = 1 := nt_contr_rank d hlc
  have hs : d.contr.size ⟨0, by omega⟩ = K := nt_contr_size d hlc _
  rw [← Equiv.sum_comp (contrEquiv1 d K hr hs).symm]
  refine Finset.sum_congr rfl fun k _ => ?_
  have hl : d.lhsIdx (ix3 a b c) ((contrEquiv1 d K hr hs).symm k) = ix3 a b k := by
    funext x
    apply Fin.ext
    match x with
    | ⟨0, _⟩ =>
      exact lhsIdx_batch_val d (ix3 a b c) _ 0 (by rw [hlb]; exact List.mem_singleton.mpr rfl) 0 (by show (0 : ℕ) < 3; omega)
        (by rw [hlb]; rfl)
    | ⟨1, _⟩ =>
      exact lhsIdx_non_val d (ix3 a b c) _ 1 (by rw [hlb]; simp) (by rw [hln]; exact List.mem_singleton.mpr rfl) 1
        (by show (1 : ℕ) < 3; omega) (by rw [hlb, hln]; rfl)
    | ⟨2, _⟩ =>
      exact (d.lhsIdx_val_of_single (cl := 2) hlc (ix3 a b c) _).trans (contrEquiv1_symm_val d K hr hs k)
  have hr' : d.rhsIdx (ix3 a b c) ((contrEquiv1 d K hr hs).symm k) = ix3 a c k := by
    funext x
    apply Fin.ext
    match x with
    | ⟨0, _⟩ =>
      exact rhsIdx_batch_val d (ix3 a b c) _ 0 (by rw [hrb]; exact List.mem_singleton.mpr rfl) 0 (by show (0 : ℕ) < 3; omega)
        (by rw [hrb]; rfl)
    | ⟨1, _⟩ =>
      exact rhsIdx_non_val d (ix3 a b c) _ 1 (by rw [hrb]; simp) (by rw [hrn]; exact List.mem_singleton.mpr rfl) 2
        (by show (2 : ℕ) < 3; omega) (by rw [hlb, hln, hrn]; rfl)
    | ⟨2, _⟩ =>
      exact (d.rhsIdx_val_of_single (cr := 2) hrc (ix3 a b c) _).trans (contrEquiv1_symm_val d K hr hs k)
  rw [hl, hr']

end NT

/-! ## The right operand contracted on its middle axis: `[A, B, K] · [A, K, C] → [A, B, C]` -/

section NN

variable {A B C K : Nat} (d : DotDims ⟨3, ![A, B, K]⟩ ⟨3, ![A, K, C]⟩ ⟨3, ![A, B, C]⟩)
  (hlc : d.lhsContracting = [2]) (hrc : d.rhsContracting = [1])
  (hln : d.lhsNonContracting = [1]) (hrn : d.rhsNonContracting = [2])
  (hlb : d.lhsBatch = [0]) (hrb : d.rhsBatch = [0])

include hlc in
theorem nn_contr_rank : d.contr.rank = 1 := by rw [d.rank_contr, hlc]; rfl

include hlc in
theorem nn_contr_size (h0 : 0 < d.contr.rank) : d.contr.size ⟨0, h0⟩ = K := by
  have h1 : 0 < d.lhsContracting.length := by rw [hlc]; exact Nat.one_pos
  refine (d.size_contr 0 h1).trans ?_
  have : d.lhsContracting[0] = (2 : Fin (⟨3, ![A, B, K]⟩ : Shape).rank) := by simp [hlc]
  rw [this]
  rfl

include hlc hrc hln hrn hlb hrb in
/-- ENTRY `(a, b, c)` of `[A, B, K] · [A, K, C]` into the zero array: `∑ₖ lhs (a, b, k) * rhs (a, k, c)`. -/
theorem nn_zero_apply {φ₁ φ₂ : FTy} (prec : Option ContractPrecision)
    (lhs : FVec Ideal ⟨3, ![A, B, K]⟩ φ₁) (rhs : FVec Ideal ⟨3, ![A, K, C]⟩ φ₂) (a : Fin A) (b : Fin B) (c : Fin C) :
    FloatOps.matmul d prec lhs rhs (constant ⟨3, ![A, B, C]⟩ .f32 0x00000000#32) (ix3 a b c)
      = ∑ k : Fin K, lhs (ix3 a b k) * rhs (ix3 a k c) := by
  rw [Ideal.matmul_constant_zero_apply]
  have hr : d.contr.rank = 1 := nn_contr_rank d hlc
  have hs : d.contr.size ⟨0, by omega⟩ = K := nn_contr_size d hlc _
  rw [← Equiv.sum_comp (contrEquiv1 d K hr hs).symm]
  refine Finset.sum_congr rfl fun k _ => ?_
  have hl : d.lhsIdx (ix3 a b c) ((contrEquiv1 d K hr hs).symm k) = ix3 a b k := by
    funext x
    apply Fin.ext
    match x with
    | ⟨0, _⟩ =>
      exact lhsIdx_batch_val d (ix3 a b c) _ 0 (by rw [hlb]; exact List.mem_singleton.mpr rfl) 0 (by show (0 : ℕ) < 3; omega)
        (by rw [hlb]; rfl)
    | ⟨1, _⟩ =>
      exact lhsIdx_non_val d (ix3 a b c) _ 1 (by rw [hlb]; simp) (by rw [hln]; exact List.mem_singleton.mpr rfl) 1
        (by show (1 : ℕ) < 3; omega) (by rw [hlb, hln]; rfl)
    | ⟨2, _⟩ =>
      exact (d.lhsIdx_val_of_single (cl := 2) hlc (ix3 a b c) _).trans (contrEquiv1_symm_val d K hr hs k)
  have hr' : d.rhsIdx (ix3 a b c) ((contrEquiv1 d K hr hs).symm k) = ix3 a k c := by
    funext x
    apply Fin.ext
    match x with
    | ⟨0, _⟩ =>
      exact rhsIdx_batch_val d (ix3 a b c) _ 0 (by rw [hrb]; exact List.mem_singleton.mpr rfl) 0 (by show (0 : ℕ) < 3; omega)
        (by rw [hrb]; rfl)
    | ⟨1, _⟩ =>
      exact (d.rhsIdx_val_of_single (cr := 1) hrc (ix3 a b c) _).trans (contrEquiv1_symm_val d K hr hs k)
    | ⟨2, _⟩ =>
      exact rhsIdx_non_val d (ix3 a b c) _ 2 (by rw [hrb]; simp) (by rw [hrn]; exact List.mem_singleton.mpr rfl) 2
        (by show (2 : ℕ) < 3; omega) (by rw [hlb, hln, hrn]; rfl)
  rw [hl, hr']

end NN

end Cert.Lib.BatchedMatmul
-- ==== Proof.LibSplitLast.lean ====
/-
  Splitting and merging the last axis of a two-axis array, read at coordinates.

  A row-major cast `[a, n] → [a, b, c]` with `n = b * c` leaves every entry at its row-major position: the entry
  at `(i, j, k)` of the result is the operand's entry at `(i, j * c + k)`, and for the cast back
  `[a, b, c] → [a, n]` the entry at `(i, j * c + k)` is the operand's at `(i, j, k)`.
-/
import Idealize.ShloMosaic.Lib.Pipeline.Value
import Idealize.ShloMosaic.Lib.ValueIdx

namespace Cert.Lib.SplitLast

open Idealize.ShloMosaic Idealize.ShloMosaic.ValueIdx

variable {α : Type}

/-- The two row-major positions agree: `i * (b * c) + (j * c + k) = (i * b + j) * c + k`. -/
theorem pos_eq (n b c i j k m : ℕ) (hn : n = b * c) (hm : m = j * c + k) : i * n + m = (i * b + j) * c + k := by
  rw [hm, hn, Nat.add_mul, Nat.mul_assoc, Nat.add_assoc]

/-- `[a, n] → [a, b, c]` read at `(i, j, k)` is the operand at `(i, m)` when `m = j * c + k`. -/
theorem split_apply {a n b c : ℕ} (x : (⟨2, ![a, n]⟩ : Shape).Idx → α)
    (h : (⟨2, ![a, n]⟩ : Shape).ShapeCasts ⟨3, ![a, b, c]⟩) (hn : n = b * c)
    (i : Fin a) (j : Fin b) (k : Fin c) (m : Fin n) (hm : m.val = j.val * c + k.val) :
    shapeCast ⟨3, ![a, b, c]⟩ x h (ix3 i j k) = x (ix2 i m) :=
  shapeCast_apply x h _ _ (by
    rw [Shape.rowMajor_val_two, Shape.rowMajor_val_three]
    exact pos_eq n b c i.val j.val k.val m.val hn hm)

/-- `[a, b, c] → [a, n]` read at `(i, m)` is the operand at `(i, j, k)` when `m = j * c + k`. -/
theorem merge_apply {a n b c : ℕ} (x : (⟨3, ![a, b, c]⟩ : Shape).Idx → α)
    (h : (⟨3, ![a, b, c]⟩ : Shape).ShapeCasts ⟨2, ![a, n]⟩) (hn : n = b * c)
    (i : Fin a) (j : Fin b) (k : Fin c) (m : Fin n) (hm : m.val = j.val * c + k.val) :
    shapeCast ⟨2, ![a, n]⟩ x h (ix2 i m) = x (ix3 i j k) :=
  shapeCast_apply x h _ _ (by
    rw [Shape.rowMajor_val_three, Shape.rowMajor_val_two]
    exact (pos_eq n b c i.val j.val k.val m.val hn hm).symm)

end Cert.Lib.SplitLast
-- ==== Proof.LibAxisLayout.lean ====
/-
  Three-axis layout operations and single-axis reductions read at an index given by coordinates.

  A reduction of an [a, b, c] array along its middle or last axis leaves an [a, c] or [a, b] array; kept as a
  unit axis it is re-laid as [a, 1, c] or [a, b, 1] and broadcast back to [a, b, c]. Read at (i, j, k) each cast
  returns the operand's entry at the coordinates that remain — a unit coordinate is zero, so the row-major
  position is unchanged — and each broadcast reads the unit axis at 0 and the other axes at the result's own
  coordinates. A reduction over one axis, read at the kept coordinates, ranges over the dropped coordinate put
  back in its place.
-/
import Idealize.ShloMosaic.Lib.Pipeline.Value
import Idealize.ShloMosaic.Lib.ValueIdx
import Idealize.ShloMosaic.PureOps.Ideal.Laws

namespace Cert.Lib.AxisLayout

open Idealize.ShloMosaic Idealize.ShloMosaic.ValueIdx

variable {α : Type}

/-- Two indices of a one-axis shape with the same coordinate are equal. -/
theorem ext1 {n0 : ℕ} {f g : (⟨1, ![n0]⟩ : Shape).Idx} (h0 : (f 0).val = (g 0).val) : f = g :=
  funext fun a => Fin.ext (by match a with | ⟨0, _⟩ => exact h0)

/-- Two indices of a two-axis shape with the same coordinates are equal. -/
theorem ext2 {n0 n1 : ℕ} {f g : (⟨2, ![n0, n1]⟩ : Shape).Idx} (h0 : (f 0).val = (g 0).val) (h1 : (f 1).val = (g 1).val) : f = g :=
  funext fun a => Fin.ext (by match a with | ⟨0, _⟩ => exact h0 | ⟨1, _⟩ => exact h1)

/-- Two indices of a three-axis shape with the same coordinates are equal. -/
theorem ext3 {n0 n1 n2 : ℕ} {f g : (⟨3, ![n0, n1, n2]⟩ : Shape).Idx} (h0 : (f 0).val = (g 0).val) (h1 : (f 1).val = (g 1).val)
    (h2 : (f 2).val = (g 2).val) : f = g :=
  funext fun a => Fin.ext (by match a with | ⟨0, _⟩ => exact h0 | ⟨1, _⟩ => exact h1 | ⟨2, _⟩ => exact h2)

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array cast to [a, c] reads, at (i, k), the operand at (i, 0, k). -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Dropping the middle axis of [a, b, c]: the kept index (i, k) with coordinate j put back is (i, j, k). -/
theorem lift_abc_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext d; apply Fin.ext
  fin_cases d <;> rfl

/-- Dropping the last axis of [a, b, c]: the kept index (i, j) with coordinate k put back is (i, j, k). -/
theorem lift_abc_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- Dropping the last axis of [a, b]: the kept index i with coordinate k put back is (i, k). -/
theorem lift_ab_last {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext d; apply Fin.ext
  fin_cases d <;> rfl

variable {φ : FTy}

/-- A sum along the middle axis of [a, b, c], at (i, k), is the sum over j of the entries (i, j, k). -/
theorem sum_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_abc_mid h i k j))

/-- A sum along the last axis of [a, b, c], at (i, j), is the sum over k of the entries (i, j, k). -/
theorem sum_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_abc_last h i j k))

/-- A sum along the last axis of [a, b], at i, is the sum over k of the entries (i, k). -/
theorem sum_row_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

/-- A maximum along the middle axis of [a, b, c], at (i, k): the fold of max from the start value over the entries (i, j, k). -/
theorem max_mid_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) (fun j => src (ix3 i j k)) :=
  (Ideal.multiReduction_maximumf_single src acc h hφ hacc (ix2 i k)).trans
    (congrArg (fun f => (Finset.univ : Finset (Fin b)).fold max (Ideal.ofBits φ acc) f)
      (funext fun j => congrArg src (lift_abc_mid h i k j)))

/-- A maximum along the last axis of [a, b, c], at (i, j): the fold of max from the start value over the entries (i, j, k). -/
theorem max_last_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_abc_last h i j k)))

end Cert.Lib.AxisLayout
-- ==== Proof.KernelRow.lean ====
/-
  The kernel body's arithmetic, one row at a time.

  The body loads a block of 256 rows of each input and the whole weights, and stores one value: the attention of
  the block. Read at row `p`, column `n`, every operation of it touches row `p` of the input blocks only — the
  matrix products contract the columns of a row, the batched products have the row as their batch axis, the
  softmax reduces over heads within a row — so the stored value there is `Attn.attn` of row `p` of the three
  blocks. The four payloads of the body are read in the order they feed one another: the projected values' heads,
  the scaled scores, the scores' row maxima, and the store's value over those three.
-/
import proofs.«145773_j22986664969071_1_alg».proof.Proof.Gen.KernelIdeal.Skeleton
import proofs.«145773_j22986664969071_1_alg».proof.Proof.Spec
import proofs.«145773_j22986664969071_1_alg».proof.Proof.LibPlainMatmul
import proofs.«145773_j22986664969071_1_alg».proof.Proof.LibBatchedMatmul
import proofs.«145773_j22986664969071_1_alg».proof.Proof.LibSplitLast
import proofs.«145773_j22986664969071_1_alg».proof.Proof.LibAxisLayout
import Idealize.ShloMosaic.Lib.ValueLayout
import Idealize.ShloMosaic.Lib.ValueIdx
import Idealize.ShloMosaic.Lib.Pipeline.Value

noncomputable section

open scoped BigOperators

namespace Cert.KernelIdeal.RowValue

open Cert.KernelIdeal Cert.KernelIdeal.Gen Idealize.ShloMosaic Idealize.ShloMosaic.ValueIdx Cert.Attn Cert.Lib

/-- A block of rows times the weights plus the bias, at row `p`, column `n`: the projection of row `p`. -/
theorem proj_block (x : FVec Ideal S256x1024 .f32) (W : FVec Ideal S1024x1024 .bf16) (b : FVec Ideal S1024 .f32)
    (p : Fin 256) (n : Fin 1024) :
    addf (matmul dot_S256x1024_S1024x1024_S256x1024_1_0_0_1_n_n none (truncf .bf16 x bitsLt_bf16_f32)
        (shapeCast S1024x1024 W shapeCasts_S1024x1024_S1024x1024) (constant S256x1024 .f32 0x00000000#32))
      (broadcastTo S256x1024 (shapeCast S1x1024 b shapeCasts_S1024_S1x1024) broadcasts_S1x1024_S256x1024) (ix2 p n)
      = proj (rowOf x p) (matOf W) (vecOf b) n := by
  refine (addf_apply _ _ _).trans ?_
  unfold proj
  refine congrArg₂ (· + ·) ?_ ?_
  · refine (PlainMatmul.matmul_zero_apply _ rfl rfl rfl rfl rfl rfl none _ _ p n).trans ?_
    refine Finset.sum_congr rfl fun k _ => ?_
    rw [shapeCast_self]
    rfl
  · refine (broadcastTo_1b_ab_apply _ _ p n).trans ?_
    exact shapeCast_a_1a_apply b _ 0 n

/-- The projected values, re-laid as heads, at row `p`, head `g`, lane `d`. -/
theorem pay2_apply (x2 : Vec Ideal S256x1024 .f32) (x7 : Vec Ideal S1024x1024 .bf16) (x8 : Vec Ideal S1024 .f32)
    (p : Fin 256) (g : Fin 16) (d : Fin 64) :
    k0_pay2 x2 x7 x8 (ix3 p g d) = proj (rowOf x2 p) (matOf x7) (vecOf x8) (col g d) := by
  unfold k0_pay2
  try dsimp only
  refine (truncf_apply (ψ := .bf16) _ bitsLt_bf16_f32 _).trans ?_
  refine (SplitLast.split_apply _ _ rfl p g d (col g d) rfl).trans ?_
  exact proj_block x2 x7 x8 p (col g d)

/-- The scaled scores at row `p`, heads `h` and `g`. -/
theorem pay3_apply (x0 : Vec Ideal S256x1024 .f32) (x3 : Vec Ideal S1024x1024 .bf16) (x4 : Vec Ideal S1024 .f32)
    (x1 : Vec Ideal S256x1024 .f32) (x5 : Vec Ideal S1024x1024 .bf16) (x6 : Vec Ideal S1024 .f32)
    (p : Fin 256) (h g : Fin 16) :
    k0_pay3 x0 x3 x4 x1 x5 x6 (ix3 p h g)
      = score (proj (rowOf x0 p) (matOf x3) (vecOf x4)) (proj (rowOf x1 p) (matOf x5) (vecOf x6)) h g := by
  unfold k0_pay3
  try dsimp only
  refine (mulf_apply _ _ _).trans ?_
  unfold score
  refine congrArg₂ (· * ·) ?_ rfl
  refine (BatchedMatmul.nt_zero_apply _ rfl rfl rfl rfl rfl rfl none _ _ p h g).trans ?_
  refine Finset.sum_congr rfl fun d _ => ?_
  refine congrArg₂ (· * ·) ?_ ?_
  · refine (truncf_apply (ψ := .bf16) _ bitsLt_bf16_f32 _).trans ?_
    refine (SplitLast.split_apply _ _ rfl p h d (col h d) rfl).trans ?_
    exact proj_block x0 x3 x4 p (col h d)
  · refine (truncf_apply (ψ := .bf16) _ bitsLt_bf16_f32 _).trans ?_
    refine (SplitLast.split_apply _ _ rfl p g d (col g d) rfl).trans ?_
    exact proj_block x1 x5 x6 p (col g d)

/-- The maximum over `g` of the scaled scores at row `p`, head `h`, taken from -∞. -/
theorem pay4_apply (x0 : Vec Ideal S256x1024 .f32) (x3 : Vec Ideal S1024x1024 .bf16) (x4 : Vec Ideal S1024 .f32)
    (x1 : Vec Ideal S256x1024 .f32) (x5 : Vec Ideal S1024x1024 .bf16) (x6 : Vec Ideal S1024 .f32)
    (p : Fin 256) (h : Fin 16) :
    k0_pay4 x0 x3 x4 x1 x5 x6 (ix2 p h)
      = (Finset.univ : Finset (Fin 16)).fold max negInf
          (score (proj (rowOf x0 p) (matOf x3) (vecOf x4)) (proj (rowOf x1 p) (matOf x5) (vecOf x6)) h) := by
  unfold k0_pay4
  try dsimp only
  refine (AxisLayout.max_last_apply _ _ _ _ _ p h).trans ?_
  exact congrArg (fun f => (Finset.univ : Finset (Fin 16)).fold max negInf f)
    (funext fun g => pay3_apply x0 x3 x4 x1 x5 x6 p h g)

/-! ## The softmax and the store's value -/

/-- A per-(row, head) quantity kept as a unit axis and broadcast over `g` reads, at `(p, h, g)`, the quantity at `(p, h)`. -/
theorem keep_bcast (u : FVec Ideal S256x16 .f32) (p : Fin 256) (h g : Fin 16) :
    broadcastTo S256x16x16 (shapeCast S256x16x1 u shapeCasts_S256x16_S256x16x1) broadcasts_S256x16x1_S256x16x16 (ix3 p h g)
      = u (ix2 p h) :=
  (AxisLayout.broadcastTo_ab1_abc_apply _ _ p h g).trans (AxisLayout.shapeCast_ab_ab1_apply u _ p h 0)

/-- The exponentials: the scores less their row maximum, exponentiated. -/
theorem exps_apply (v35 : FVec Ideal S256x16x16 .f32) (v36 : FVec Ideal S256x16 .f32) (p : Fin 256) (h g : Fin 16)
    (s : Fin 16 → Fin 16 → EReal) (h35 : ∀ h g, v35 (ix3 p h g) = s h g)
    (h36 : ∀ h, v36 (ix2 p h) = (Finset.univ : Finset (Fin 16)).fold max negInf (s h)) :
    exp (subf v35 (broadcastTo S256x16x16 (shapeCast S256x16x1
        (maximumf (broadcast S256x16 (Scalar.ofBits (F := Ideal) .f32 0xFF800000#32)) v36) shapeCasts_S256x16_S256x16x1)
        broadcasts_S256x16x1_S256x16x16)) (ix3 p h g) = expo (s h) g := by
  show Ideal.exp (v35 (ix3 p h g) - _) = _
  unfold expo rowMax
  rw [h35, keep_bcast, maximumf_apply, h36]
  rfl

/-- Exponentials divided by their sum over `g`. -/
theorem softmax_div (E : FVec Ideal S256x16x16 .f32) (p : Fin 256) (h g : Fin 16) (e : Fin 16 → EReal)
    (hE : ∀ g, E (ix3 p h g) = e g) :
    divf E (broadcastTo S256x16x16 (shapeCast S256x16x1
        (multiReduction .add [2] S256x16 E 0x00000000#32 reduces_S256x16x16_S256x16 (.inl rfl) rfl) shapeCasts_S256x16_S256x16x1)
        broadcasts_S256x16x1_S256x16x16) (ix3 p h g) = Ideal.div (e g) (∑ g' : Fin 16, e g') := by
  refine (divf_apply _ _ _).trans ?_
  refine congrArg₂ Ideal.div (hE g) ?_
  refine (keep_bcast _ p h g).trans ?_
  refine (AxisLayout.sum_last_apply _ _ _ _ _ p h).trans ?_
  exact Finset.sum_congr rfl fun g' _ => hE g'

/-- THE STORE'S VALUE at row `p`, column `n`, over the scores `s`, their maxima and the projected values `v` of the
    row: the mixed heads projected by the output weights. -/
theorem pay1_apply (v32 : FVec Ideal S256x16x64 .bf16) (v35 : FVec Ideal S256x16x16 .f32) (v36 : FVec Ideal S256x16 .f32)
    (W : Vec Ideal S1024x1024 .bf16) (b : Vec Ideal S1024 .f32) (p : Fin 256) (n : Fin 1024)
    (s : Fin 16 → Fin 16 → EReal) (v : Row) (h35 : ∀ h g, v35 (ix3 p h g) = s h g)
    (h36 : ∀ h, v36 (ix2 p h) = (Finset.univ : Finset (Fin 16)).fold max negInf (s h))
    (h32 : ∀ g d, v32 (ix3 p g d) = v (col g d)) :
    k0_pay1 v32 v35 v36 (Scalar.ofBits (F := Ideal) .f32 0xFF800000#32) W b (ix2 p n) = proj (mix s v) (matOf W) (vecOf b) n := by
  unfold k0_pay1
  try dsimp only
  refine (proj_block _ W b p n).trans ?_
  refine congrArg (fun r => proj r (matOf W) (vecOf b) n) (funext fun k => ?_)
  show shapeCast S256x1024 _ shapeCasts_S256x16x64_S256x1024 (ix2 p k) = _
  refine (SplitLast.merge_apply _ _ rfl p (headOf k) (laneOf k) k
    (by show k.val = k.val / 64 * 64 + k.val % 64; omega)).trans ?_
  refine (BatchedMatmul.nn_zero_apply _ rfl rfl rfl rfl rfl rfl none _ _ p (headOf k) (laneOf k)).trans ?_
  unfold mix
  refine Finset.sum_congr rfl fun g _ => ?_
  refine congrArg₂ (· * ·) ?_ (h32 g (laneOf k))
  refine (truncf_apply (ψ := .bf16) _ bitsLt_bf16_f32 _).trans ?_
  exact softmax_div _ p (headOf k) g (expo (s (headOf k)))
    (fun g' => exps_apply v35 v36 p (headOf k) g' s h35 h36)

/-- THE BODY'S RESULT at row `p`, column `n` of the block: the attention of row `p` of the three input blocks. -/
theorem body_apply (x0 x1 x2 : Vec Ideal S256x1024 .f32) (x3 : Vec Ideal S1024x1024 .bf16) (x4 : Vec Ideal S1024 .f32)
    (x5 : Vec Ideal S1024x1024 .bf16) (x6 : Vec Ideal S1024 .f32) (x7 : Vec Ideal S1024x1024 .bf16) (x8 : Vec Ideal S1024 .f32)
    (x9 : Vec Ideal S1024x1024 .bf16) (x10 : Vec Ideal S1024 .f32) (p : Fin 256) (n : Fin 1024) :
    k0_pay1 (k0_pay2 x2 x7 x8) (k0_pay3 x0 x3 x4 x1 x5 x6) (k0_pay4 x0 x3 x4 x1 x5 x6)
        (Scalar.ofBits (F := Ideal) .f32 0xFF800000#32) x9 x10 (ix2 p n)
      = attn (rowOf x0 p) (rowOf x1 p) (rowOf x2 p) (matOf x3) (vecOf x4) (matOf x5) (vecOf x6) (matOf x7) (vecOf x8)
          (matOf x9) (vecOf x10) n :=
  pay1_apply _ _ _ x9 x10 p n _ _ (fun h g => pay3_apply x0 x3 x4 x1 x5 x6 p h g)
    (fun h => pay4_apply x0 x3 x4 x1 x5 x6 p h) (fun g d => pay2_apply x2 x7 x8 p g d)

/-- THE BODY'S RESULT ON A BLOCK OF THE ARRAYS: when the three input blocks are rows `t * 256 + p` of the arrays `Q`, `K`, `V`
    and the weight and bias blocks are the whole weight and bias arrays, the body's value at `(p, n)` is the result array
    `Attn.G` at `(t * 256 + p, n)`. -/
theorem block_value (Q K V : (⟨2, ![32768, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal)
    (x0 x1 x2 : Vec Ideal S256x1024 .f32) (x3 : Vec Ideal S1024x1024 .bf16) (x4 : Vec Ideal S1024 .f32)
    (x5 : Vec Ideal S1024x1024 .bf16) (x6 : Vec Ideal S1024 .f32) (x7 : Vec Ideal S1024x1024 .bf16) (x8 : Vec Ideal S1024 .f32)
    (x9 : Vec Ideal S1024x1024 .bf16) (x10 : Vec Ideal S1024 .f32) (t : ℕ) (ht : t < 128) (p : Fin 256) (n : Fin 1024)
    (h0 : ∀ k, x0 (ix2 p k) = Q (ix2 (⟨t * 256 + p.val, by omega⟩ : Fin 32768) k))
    (h1 : ∀ k, x1 (ix2 p k) = K (ix2 (⟨t * 256 + p.val, by omega⟩ : Fin 32768) k))
    (h2 : ∀ k, x2 (ix2 p k) = V (ix2 (⟨t * 256 + p.val, by omega⟩ : Fin 32768) k))
    (h3 : (x3 : S1024x1024.Idx → EReal) = Wq) (h4 : (x4 : S1024.Idx → EReal) = bq)
    (h5 : (x5 : S1024x1024.Idx → EReal) = Wk) (h6 : (x6 : S1024.Idx → EReal) = bk)
    (h7 : (x7 : S1024x1024.Idx → EReal) = Wv) (h8 : (x8 : S1024.Idx → EReal) = bv)
    (h9 : (x9 : S1024x1024.Idx → EReal) = Wo) (h10 : (x10 : S1024.Idx → EReal) = bo) :
    k0_pay1 (k0_pay2 x2 x7 x8) (k0_pay3 x0 x3 x4 x1 x5 x6) (k0_pay4 x0 x3 x4 x1 x5 x6)
        (Scalar.ofBits (F := Ideal) .f32 0xFF800000#32) x9 x10 (ix2 p n)
      = G Q K V Wq bq Wk bk Wv bv Wo bo (ix2 (⟨t * 256 + p.val, by omega⟩ : Fin 32768) n) := by
  subst h3 h4 h5 h6 h7 h8 h9 h10
  refine (body_apply x0 x1 x2 x3 x4 x5 x6 x7 x8 x9 x10 p n).trans ?_
  have e0 : rowOf x0 p = rowOf Q (⟨t * 256 + p.val, by omega⟩ : Fin 32768) := funext fun k => h0 k
  have e1 : rowOf x1 p = rowOf K (⟨t * 256 + p.val, by omega⟩ : Fin 32768) := funext fun k => h1 k
  have e2 : rowOf x2 p = rowOf V (⟨t * 256 + p.val, by omega⟩ : Fin 32768) := funext fun k => h2 k
  rw [e0, e1, e2]
  rfl

end Cert.KernelIdeal.RowValue

end
-- ==== Proof.KernelArray.lean ====
/-
  From the blocks the grid points write back to the whole result array.

  The grid has 128 points; point `t` stages rows `t * 256 … t * 256 + 255` of the queries, keys and values, the
  whole weights (as the host's narrowing conversions of them, the identity on extended reals) and the whole biases,
  runs the body, and writes its value back as rows `t * 256 … t * 256 + 255` of the result. The body's value at row
  `p` is the attention of row `p` of its blocks, that is of row `t * 256 + p` of the arrays: so point `t` writes
  block `t` of `Attn.G` of the argument arrays, and since the 128 blocks cover all 32768 rows the result array ends
  equal to it.
-/
import proofs.«145773_j22986664969071_1_alg».proof.Proof.Gen.KernelIdeal.Value
import proofs.«145773_j22986664969071_1_alg».proof.Proof.KernelRow
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
  Idealize.ShloMosaic.ValueIdx Cert.Attn Cert.Lib.AxisLayout
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- THE RESULT ARRAY as a function of the argument arrays at launch. -/
def result (c : Dev nD) : S32768x1024.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) (m ((c : Thread nD τ).loc main_arg10))

/-- The block index maps, decided over the 128 grid points: the three inputs' and the result's blocks are block row
    `t`, column 0; the weights' and biases' are block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_9.index t (0 : Fin 2) = 0 ∧ win0_9.index t (1 : Fin 2) = 0)
    ∧ win0_4.index t (0 : Fin 1) = 0 ∧ win0_6.index t (0 : Fin 1) = 0
    ∧ win0_8.index t (0 : Fin 1) = 0 ∧ win0_10.index t (0 : Fin 1) = 0 :=
  (by decide +kernel : ∀ t : Fin grid0.N, _)

/-! ## The arrays the region finds: the host's conversions of the weights are the weights -/

theorem V_wq (c : Dev nD) : (V m c main_v0 : S1024x1024.Idx → EReal) = (m ((c : Thread nD τ).loc main_arg3)) := by
  dsimp only [Gen.V, Gen.hostOps0]; after_results; rfl
theorem V_wk (c : Dev nD) : (V m c main_v1 : S1024x1024.Idx → EReal) = (m ((c : Thread nD τ).loc main_arg5)) := by
  dsimp only [Gen.V, Gen.hostOps0]; after_results; rfl
theorem V_wv (c : Dev nD) : (V m c main_v2 : S1024x1024.Idx → EReal) = (m ((c : Thread nD τ).loc main_arg7)) := by
  dsimp only [Gen.V, Gen.hostOps0]; after_results; rfl
theorem V_wo (c : Dev nD) : (V m c main_v3 : S1024x1024.Idx → EReal) = (m ((c : Thread nD τ).loc main_arg9)) := by
  dsimp only [Gen.V, Gen.hostOps0]; after_results; rfl

/-! ## The blocks at a point -/

section Blocks

variable (c : Dev nD) (t : Fin cfg0.N)

/-- A row block of an input at point `t`: row `p` of the block is row `t * 256 + p` of the array. -/
theorem rows0 (ht : t.val < 128) (p : Fin 256) (k : Fin 1024) :
    iblk m c 0 t (ix2 p k) = (m ((c : Thread nD τ).loc main_arg0)) (ix2 (⟨t.val * 256 + p.val, by omega⟩ : Fin 32768) k) := by
  show V m c main_arg0 (((cfg0.win 0).blk t).view.emb (ix2 p k)) = _
  rw [V_main_arg0]
  obtain ⟨⟨f0, f1⟩, -⟩ := idx_facts t
  refine congrArg _ (ext2 ?_ ?_)
  · show win0_0.index t (0 : Fin 2) * 256 + 1 * p.val = t.val * 256 + p.val
    rw [f0]; omega
  · show win0_0.index t (1 : Fin 2) * 1024 + 1 * k.val = k.val
    rw [f1]; omega

theorem rows1 (ht : t.val < 128) (p : Fin 256) (k : Fin 1024) :
    iblk m c 1 t (ix2 p k) = (m ((c : Thread nD τ).loc main_arg1)) (ix2 (⟨t.val * 256 + p.val, by omega⟩ : Fin 32768) k) := by
  show V m c main_arg1 (((cfg0.win 1).blk t).view.emb (ix2 p k)) = _
  rw [V_main_arg1]
  obtain ⟨-, ⟨f0, f1⟩, -⟩ := idx_facts t
  refine congrArg _ (ext2 ?_ ?_)
  · show win0_1.index t (0 : Fin 2) * 256 + 1 * p.val = t.val * 256 + p.val
    rw [f0]; omega
  · show win0_1.index t (1 : Fin 2) * 1024 + 1 * k.val = k.val
    rw [f1]; omega

theorem rows2 (ht : t.val < 128) (p : Fin 256) (k : Fin 1024) :
    iblk m c 2 t (ix2 p k) = (m ((c : Thread nD τ).loc main_arg2)) (ix2 (⟨t.val * 256 + p.val, by omega⟩ : Fin 32768) k) := by
  show V m c main_arg2 (((cfg0.win 2).blk t).view.emb (ix2 p k)) = _
  rw [V_main_arg2]
  obtain ⟨-, -, ⟨f0, f1⟩, -⟩ := idx_facts t
  refine congrArg _ (ext2 ?_ ?_)
  · show win0_2.index t (0 : Fin 2) * 256 + 1 * p.val = t.val * 256 + p.val
    rw [f0]; omega
  · show win0_2.index t (1 : Fin 2) * 1024 + 1 * k.val = k.val
    rw [f1]; omega

/-- A weight's block is the whole weight array. -/
theorem whole3 : (iblk m c 3 t : S1024x1024.Idx → EReal) = (m ((c : Thread nD τ).loc main_arg3)) := by
  funext j
  show V m c main_v0 (((cfg0.win 3).blk t).view.emb j) = _
  rw [V_wq]
  obtain ⟨-, -, -, -, ⟨f0, f1⟩, -⟩ := idx_facts t
  refine congrArg _ (ext2 ?_ ?_)
  · show win0_3.index t (0 : Fin 2) * 1024 + 1 * (j 0).val = (j 0).val
    rw [f0]; omega
  · show win0_3.index t (1 : Fin 2) * 1024 + 1 * (j 1).val = (j 1).val
    rw [f1]; omega

theorem whole5 : (iblk m c 5 t : S1024x1024.Idx → EReal) = (m ((c : Thread nD τ).loc main_arg5)) := by
  funext j
  show V m c main_v1 (((cfg0.win 5).blk t).view.emb j) = _
  rw [V_wk]
  obtain ⟨-, -, -, -, -, ⟨f0, f1⟩, -⟩ := idx_facts t
  refine congrArg _ (ext2 ?_ ?_)
  · show win0_5.index t (0 : Fin 2) * 1024 + 1 * (j 0).val = (j 0).val
    rw [f0]; omega
  · show win0_5.index t (1 : Fin 2) * 1024 + 1 * (j 1).val = (j 1).val
    rw [f1]; omega

theorem whole7 : (iblk m c 7 t : S1024x1024.Idx → EReal) = (m ((c : Thread nD τ).loc main_arg7)) := by
  funext j
  show V m c main_v2 (((cfg0.win 7).blk t).view.emb j) = _
  rw [V_wv]
  obtain ⟨-, -, -, -, -, -, ⟨f0, f1⟩, -⟩ := idx_facts t
  refine congrArg _ (ext2 ?_ ?_)
  · show win0_7.index t (0 : Fin 2) * 1024 + 1 * (j 0).val = (j 0).val
    rw [f0]; omega
  · show win0_7.index t (1 : Fin 2) * 1024 + 1 * (j 1).val = (j 1).val
    rw [f1]; omega

theorem whole9 : (iblk m c 9 t : S1024x1024.Idx → EReal) = (m ((c : Thread nD τ).loc main_arg9)) := by
  funext j
  show V m c main_v3 (((cfg0.win 9).blk t).view.emb j) = _
  rw [V_wo]
  obtain ⟨-, -, -, -, -, -, -, ⟨f0, f1⟩, -⟩ := idx_facts t
  refine congrArg _ (ext2 ?_ ?_)
  · show win0_9.index t (0 : Fin 2) * 1024 + 1 * (j 0).val = (j 0).val
    rw [f0]; omega
  · show win0_9.index t (1 : Fin 2) * 1024 + 1 * (j 1).val = (j 1).val
    rw [f1]; omega

/-- A bias's block is the whole bias array. -/
theorem whole4 : (iblk m c 4 t : S1024.Idx → EReal) = (m ((c : Thread nD τ).loc main_arg4)) := by
  funext j
  show V m c main_arg4 (((cfg0.win 4).blk t).view.emb j) = _
  rw [V_main_arg4]
  obtain ⟨-, -, -, -, -, -, -, -, f, -⟩ := idx_facts t
  refine congrArg _ (ext1 ?_)
  show win0_4.index t (0 : Fin 1) * 1024 + 1 * (j 0).val = (j 0).val
  rw [f]; omega

theorem whole6 : (iblk m c 6 t : S1024.Idx → EReal) = (m ((c : Thread nD τ).loc main_arg6)) := by
  funext j
  show V m c main_arg6 (((cfg0.win 6).blk t).view.emb j) = _
  rw [V_main_arg6]
  obtain ⟨-, -, -, -, -, -, -, -, -, f, -⟩ := idx_facts t
  refine congrArg _ (ext1 ?_)
  show win0_6.index t (0 : Fin 1) * 1024 + 1 * (j 0).val = (j 0).val
  rw [f]; omega

theorem whole8 : (iblk m c 8 t : S1024.Idx → EReal) = (m ((c : Thread nD τ).loc main_arg8)) := by
  funext j
  show V m c main_arg8 (((cfg0.win 8).blk t).view.emb j) = _
  rw [V_main_arg8]
  obtain ⟨-, -, -, -, -, -, -, -, -, -, f, -⟩ := idx_facts t
  refine congrArg _ (ext1 ?_)
  show win0_8.index t (0 : Fin 1) * 1024 + 1 * (j 0).val = (j 0).val
  rw [f]; omega

theorem whole10 : (iblk m c 10 t : S1024.Idx → EReal) = (m ((c : Thread nD τ).loc main_arg10)) := by
  funext j
  show V m c main_arg10 (((cfg0.win 10).blk t).view.emb j) = _
  rw [V_main_arg10]
  obtain ⟨-, -, -, -, -, -, -, -, -, -, -, f⟩ := idx_facts t
  refine congrArg _ (ext1 ?_)
  show win0_10.index t (0 : Fin 1) * 1024 + 1 * (j 0).val = (j 0).val
  rw [f]; omega

end Blocks

/-! ## What a point writes back, the cover, and the run -/

theorem t_lt (t : Fin cfg0.N) : t.val < 128 := by
  have h := t.isLt
  have e : cfg0.N = 128 := N_0
  omega

/-- WHAT POINT `t` WRITES BACK is block `t` of the result array. -/
theorem flushed_eq (c : Dev nD) (t : Fin cfg0.N) :
    (dats m 0 c).flushed 11 t = ((cfg0.win 11).blk t).view.read (Elt Ideal) (result m c) := by
  show (cfg0.win 11).cut (grid0.coords t) ((dats m 0 c).after 11 t) = _
  rw [after0_11]
  unfold out0_11
  rw [View.canon_unit_zero hz2]
  simp only [View.ld_unit_zero (S := S256x1024) hz2, View.ld_unit_zero (S := S1024x1024) hz2,
    View.ld_unit_zero (S := S1024) hz1]
  funext j
  revert j
  show ∀ j : S256x1024.Idx, k0_pay1 (F := Ideal) _ _ _ _ _ _ j = result m c (((cfg0.win 11).blk t).view.emb j)
  intro j
  obtain ⟨p, n, rfl⟩ : ∃ (p : Fin 256) (n : Fin 1024), j = ix2 p n := ⟨j 0, j 1, eq_ix2 j⟩
  have ht := t_lt t
  refine (RowValue.block_value _ _ _ _ _ _ _ _ _ _ _ _ _ _ _ _ _ _ _ _ _ _ t.val ht p n
    (rows0 m c t ht p) (rows1 m c t ht p) (rows2 m c t ht p) (whole3 m c t) (whole4 m c t) (whole5 m c t) (whole6 m c t)
    (whole7 m c t) (whole8 m c t) (whole9 m c t) (whole10 m c t)).trans ?_
  obtain ⟨-, -, -, ⟨f0, f1⟩, -⟩ := idx_facts t
  refine congrArg (result m c) (ext2 ?_ ?_)
  · show t.val * 256 + p.val = win0_11.index t (0 : Fin 2) * 256 + 1 * p.val
    rw [f0]; omega
  · show n.val = win0_11.index t (1 : Fin 2) * 1024 + 1 * n.val
    rw [f1]; omega

/-- An index of the array is in point `t`'s block iff each coordinate is in the block's range on its axis. -/
theorem mem_blk (t : Fin cfg0.N) (i : S32768x1024.Idx) :
    i ∈ ((cfg0.win 11).blk t).view.set ↔ ∀ a : Fin 2, win0_11.index t a * S256x1024.size a ≤ (i a).val
      ∧ (i a).val < win0_11.index t a * S256x1024.size a + S256x1024.size a := by
  show i ∈ ((View.whole main_v4).slice (win0_11.rect t)).set ↔ _
  rw [View.set_slice_whole, Rect.mem_set_unit]
  exact Iff.rfl

/-- Row `r` is in the block of point `r / 256`: the 128 blocks cover the array. -/
theorem cover (i : S32768x1024.Idx) : ∃ t : Fin cfg0.N, (cfg0.win 11).flush t = true ∧ i ∈ ((cfg0.win 11).blk t).view.set := by
  have hi0 : (i 0).val < 32768 := (i 0).isLt
  have hi1 : (i 1).val < 1024 := (i 1).isLt
  let t : Fin cfg0.N := ⟨(i 0).val / 256, by have e : cfg0.N = 128 := N_0; omega⟩
  refine ⟨t, flush0_11 t, ?_⟩
  rw [mem_blk]
  obtain ⟨-, -, -, ⟨f0, f1⟩, -⟩ := idx_facts t
  have htv : t.val = (i 0).val / 256 := rfl
  intro a
  match a with
  | ⟨0, _⟩ =>
    show win0_11.index t (0 : Fin 2) * 256 ≤ (i 0).val ∧ (i 0).val < win0_11.index t (0 : Fin 2) * 256 + 256
    rw [f0, htv]; omega
  | ⟨1, _⟩ =>
    show win0_11.index t (1 : Fin 2) * 1024 ≤ (i 1).val ∧ (i 1).val < win0_11.index t (1 : Fin 2) * 1024 + 1024
    rw [f1]; omega

/-- THE RESULT ARRAY after the run. -/
theorem final (c : Dev nD) : (dats m 0 c).arrAt 11 cfg0.N = result m c :=
  (dats m 0 c).arrAt_eq_of_cover 11 (result m c) (fun t _ => flushed_eq m c t) cover

/-- The kernel's run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.ArrayValue

end
-- ==== Proof.Consts.lean ====
/-
  The two float constants that meet in the attention scores, as extended reals.

  The kernel multiplies each score by the word of 0.125; the reference divides it by the square root of the word
  of 64. The square root of 64 is 8, and a quotient by the real 8 is the product with 1/8 at every extended real,
  the infinities included, so the two scalings are one function.
-/
import Idealize.ShloMosaic.PureOps.Ideal

noncomputable section

namespace Cert.Consts

open Idealize.ShloMosaic

/-- The word of `64.0` denotes the real 64. -/
theorem ofBits_64 : Ideal.ofBits .f32 0x42800000#32 = ((64 : ℝ) : EReal) := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by the square root of the word of 64 is multiplying by the word of 0.125, at every extended real. -/
theorem div_sqrt_64 (x : EReal) :
    Ideal.div x (Ideal.sqrt (Ideal.ofBits .f32 0x42800000#32)) = x * Ideal.ofBits .f32 0x3E000000#32 := by
  rw [ofBits_64, sqrt_64, ofBits_eighth, Ideal.div_coe (by norm_num : (8 : ℝ) ≠ 0)]

end Cert.Consts

end
-- ==== Proof.RefRow.lean ====
/-
  The reference's operations, one row at a time.

  Every stage of the reference, read at row `r`, depends on row `r` of the three inputs only: the three
  projections contract the columns of a row, the two batched products have the row as their batch axis, the
  softmax reduces over heads within a row. Stage by stage, at row `r` the reference holds the corresponding piece
  of `Attn.attn` of row `r` of the inputs; its division of the scores by the square root of 64 is the product
  with 1/8.
-/
import proofs.«145773_j22986664969071_1_alg».proof.Proof.Gen.ReferenceIdeal.Read
import proofs.«145773_j22986664969071_1_alg».proof.Proof.Spec
import proofs.«145773_j22986664969071_1_alg».proof.Proof.Consts
import proofs.«145773_j22986664969071_1_alg».proof.Proof.LibAxisLayout
import Idealize.ShloMosaic.Lib.ValueIdx
import Idealize.ShloMosaic.PureOps.Ideal.Laws

noncomputable section

open scoped BigOperators

namespace Cert.ReferenceIdeal.RowValue

open Cert.ReferenceIdeal Cert.ReferenceIdeal.Gen Cert.ReferenceIdeal.Read Idealize.ShloMosaic
  Idealize.ShloMosaic.ValueIdx Cert.Attn Cert.Lib Cert.Lib.AxisLayout

/-- An input array of 32768 rows. -/
abbrev Arr : Type := (⟨S32768x1024, .f32⟩ : BufTy).Contents (Elt Ideal)
/-- A weight matrix. -/
abbrev Wt : Type := (⟨S1024x1024, .f32⟩ : BufTy).Contents (Elt Ideal)
/-- A bias. -/
abbrev Bias : Type := (⟨S1024, .f32⟩ : BufTy).Contents (Elt Ideal)

/-! ## The three projections -/

theorem projq_apply (x0 : Arr) (x3 : Wt) (x4 : Bias) (r : Fin 32768) (n : Fin 1024) :
    val_main_v3 (F := Ideal) x0 x3 x4 (ix2 r n) = proj (rowOf x0 r) (matOf x3) (vecOf x4) n := by
  rw [val_main_v3_apply, val_main_v0_apply, val_main_v2_apply, val_main_v1_apply]
  show _ + _ = _
  unfold proj
  refine congrArg₂ (· + ·) (Finset.sum_congr rfl fun k _ => ?_) (congrArg x4 (ext1 rfl))
  exact congrArg₂ (· * ·) (congrArg x0 (ext2 rfl rfl)) (congrArg x3 (ext2 rfl rfl))

theorem projk_apply (x1 : Arr) (x5 : Wt) (x6 : Bias) (r : Fin 32768) (n : Fin 1024) :
    val_main_v8 (F := Ideal) x1 x5 x6 (ix2 r n) = proj (rowOf x1 r) (matOf x5) (vecOf x6) n := by
  rw [val_main_v8_apply, val_main_v5_apply, val_main_v7_apply, val_main_v6_apply]
  show _ + _ = _
  unfold proj
  refine congrArg₂ (· + ·) (Finset.sum_congr rfl fun k _ => ?_) (congrArg x6 (ext1 rfl))
  exact congrArg₂ (· * ·) (congrArg x1 (ext2 rfl rfl)) (congrArg x5 (ext2 rfl rfl))

theorem projv_apply (x2 : Arr) (x7 : Wt) (x8 : Bias) (r : Fin 32768) (n : Fin 1024) :
    val_main_v13 (F := Ideal) x2 x7 x8 (ix2 r n) = proj (rowOf x2 r) (matOf x7) (vecOf x8) n := by
  rw [val_main_v13_apply, val_main_v10_apply, val_main_v12_apply, val_main_v11_apply]
  show _ + _ = _
  unfold proj
  refine congrArg₂ (· + ·) (Finset.sum_congr rfl fun k _ => ?_) (congrArg x8 (ext1 rfl))
  exact congrArg₂ (· * ·) (congrArg x2 (ext2 rfl rfl)) (congrArg x7 (ext2 rfl rfl))

/-! ## Re-laid as heads -/

/-- Row-major position `(r, h, d)` of `[32768, 16, 64]` is position `(r, h * 64 + d)` of `[32768, 1024]`. -/
theorem split_pos (r h d : ℕ) (hh : h < 16) (hd : d < 64) :
    ((r * 16 + h) * 64 + d) / 1024 = r ∧ ((r * 16 + h) * 64 + d) % 1024 = h * 64 + d := by
  constructor <;> omega

theorem headq_apply (x0 : Arr) (x3 : Wt) (x4 : Bias) (r : Fin 32768) (h : Fin 16) (d : Fin 64) :
    val_main_v4 (F := Ideal) x0 x3 x4 (ix3 r h d) = proj (rowOf x0 r) (matOf x3) (vecOf x4) (col h d) := by
  rw [val_main_v4_apply]
  have e : idx_main_v4 (ix3 r h d) = ix2 r (col h d) :=
    ext2 (split_pos r.val h.val d.val h.isLt d.isLt).1 (split_pos r.val h.val d.val h.isLt d.isLt).2
  rw [e]
  exact projq_apply x0 x3 x4 r (col h d)

theorem headk_apply (x1 : Arr) (x5 : Wt) (x6 : Bias) (r : Fin 32768) (h : Fin 16) (d : Fin 64) :
    val_main_v9 (F := Ideal) x1 x5 x6 (ix3 r h d) = proj (rowOf x1 r) (matOf x5) (vecOf x6) (col h d) := by
  rw [val_main_v9_apply]
  have e : idx_main_v9 (ix3 r h d) = ix2 r (col h d) :=
    ext2 (split_pos r.val h.val d.val h.isLt d.isLt).1 (split_pos r.val h.val d.val h.isLt d.isLt).2
  rw [e]
  exact projk_apply x1 x5 x6 r (col h d)

theorem headv_apply (x2 : Arr) (x7 : Wt) (x8 : Bias) (r : Fin 32768) (h : Fin 16) (d : Fin 64) :
    val_main_v14 (F := Ideal) x2 x7 x8 (ix3 r h d) = proj (rowOf x2 r) (matOf x7) (vecOf x8) (col h d) := by
  rw [val_main_v14_apply]
  have e : idx_main_v14 (ix3 r h d) = ix2 r (col h d) :=
    ext2 (split_pos r.val h.val d.val h.isLt d.isLt).1 (split_pos r.val h.val d.val h.isLt d.isLt).2
  rw [e]
  exact projv_apply x2 x7 x8 r (col h d)

/-! ## The scores and their softmax -/

section Scores

variable (x0 x1 : Arr) (x3 : Wt) (x4 : Bias) (x5 : Wt) (x6 : Bias) (r : Fin 32768)

/-- The scores of row `r`. -/
abbrev sc : Fin 16 → Fin 16 → EReal :=
  score (proj (rowOf x0 r) (matOf x3) (vecOf x4)) (proj (rowOf x1 r) (matOf x5) (vecOf x6))

/-- The inner products divided by the square root of 64 are the scaled scores. -/
theorem scores_apply (h g : Fin 16) : val_main_v18 (F := Ideal) x0 x1 x3 x4 x5 x6 (ix3 r h g) = sc x0 x1 x3 x4 x5 x6 r h g := by
  rw [val_main_v18_apply, val_main_v15_apply, val_main_v17_apply, val_main_v16_apply, val_main_cst_apply]
  show Ideal.div _ (Ideal.sqrt (Ideal.ofBits .f32 0x42800000#32)) = _
  rw [Consts.div_sqrt_64]
  unfold sc score
  refine congrArg₂ (· * ·) (Finset.sum_congr rfl fun d _ => ?_) rfl
  have el : lidx_main_v15 (ix3 r h g) d = ix3 r h d := ext3 rfl rfl rfl
  have er : ridx_main_v15 (ix3 r h g) d = ix3 r g d := ext3 rfl rfl rfl
  rw [el, er, headq_apply, headk_apply]

/-- The row maximum, from -∞. -/
theorem maxes_apply (h : Fin 16) : val_main_v21 (F := Ideal) x0 x1 x3 x4 x5 x6 (ix2 r h) = rowMax (sc x0 x1 x3 x4 x5 x6 r h) := by
  rw [val_main_v21_apply, val_main_v20_apply, val_main_cst_1_apply]
  unfold val_main_v19
  rw [Host.reduce_eq_fold_single FloatOps.maximumf _ _ reducesTo_S32768x16x16_S32768x16_d2 (by decide) h_S_ (ix2 r h)]
  unfold rowMax
  show max negInf ((Finset.univ : Finset (Fin 16)).fold max negInf _) = _
  refine congrArg (max negInf) (congrArg (fun f => (Finset.univ : Finset (Fin 16)).fold max negInf f) (funext fun g => ?_))
  show val_main_v18 (F := Ideal) x0 x1 x3 x4 x5 x6 (Shape.Reduces.lift _ (ix2 r h) g) = _
  rw [lift_abc_last]
  exact scores_apply x0 x1 x3 x4 x5 x6 r h g

/-- The exponentials. -/
theorem exps_apply (h g : Fin 16) : val_main_v25 (F := Ideal) x0 x1 x3 x4 x5 x6 (ix3 r h g) = expo (sc x0 x1 x3 x4 x5 x6 r h) g := by
  rw [val_main_v25_apply, val_main_v24_apply, val_main_v23_apply, val_main_v22_apply]
  have e : idx_main_v22 (idx_main_v23 (ix3 r h g)) = ix2 r h := ext2 rfl rfl
  rw [e, maxes_apply, scores_apply]
  rfl

/-- The exponentials divided by their sum. -/
theorem probs_apply (h g : Fin 16) : val_main_v29 (F := Ideal) x0 x1 x3 x4 x5 x6 (ix3 r h g) = prob (sc x0 x1 x3 x4 x5 x6 r h) g := by
  rw [val_main_v29_apply, val_main_v28_apply, val_main_v27_apply]
  have e : idx_main_v27 (idx_main_v28 (ix3 r h g)) = ix2 r h := ext2 rfl rfl
  rw [e, val_main_v26_apply, exps_apply]
  unfold prob
  show Ideal.div _ (Ideal.ofBits .f32 0x00000000#32 + _) = _
  rw [Ideal.ofBits_zero_f32, zero_add]
  refine congrArg (Ideal.div _) (Finset.sum_congr rfl fun g' _ => ?_)
  have e' : idx_main_v26 (ix2 r h) g' = ix3 r h g' := ext3 rfl rfl rfl
  rw [e']
  exact exps_apply x0 x1 x3 x4 x5 x6 r h g'

end Scores

/-! ## The mixed heads and the last projection -/

/-- Row-major position `(r, n)` of `[32768, 1024]` is position `(r, n / 64, n % 64)` of `[32768, 16, 64]`. -/
theorem merge_pos (r n : ℕ) (hn : n < 1024) :
    (r * 1024 + n) / 1024 = r ∧ (r * 1024 + n) / 64 % 16 = n / 64 ∧ (r * 1024 + n) % 64 = n % 64 := by
  refine ⟨?_, ?_, ?_⟩ <;> omega

theorem mixed_apply (x0 x1 x2 : Arr) (x3 : Wt) (x4 : Bias) (x5 : Wt) (x6 : Bias) (x7 : Wt) (x8 : Bias)
    (r : Fin 32768) (n : Fin 1024) :
    val_main_v31 (F := Ideal) x0 x1 x2 x3 x4 x5 x6 x7 x8 (ix2 r n)
      = mix (sc x0 x1 x3 x4 x5 x6 r) (proj (rowOf x2 r) (matOf x7) (vecOf x8)) n := by
  rw [val_main_v31_apply]
  have e : idx_main_v31 (ix2 r n) = ix3 r (headOf n) (laneOf n) :=
    ext3 (merge_pos r.val n.val n.isLt).1 (merge_pos r.val n.val n.isLt).2.1 (merge_pos r.val n.val n.isLt).2.2
  rw [e, val_main_v30_apply]
  unfold mix
  refine Finset.sum_congr rfl fun g _ => ?_
  have el : lidx_main_v30 (ix3 r (headOf n) (laneOf n)) g = ix3 r (headOf n) g := ext3 rfl rfl rfl
  have er : ridx_main_v30 (ix3 r (headOf n) (laneOf n)) g = ix3 r g (laneOf n) := ext3 rfl rfl rfl
  rw [el, er, probs_apply, headv_apply]

/-- THE REFERENCE'S RESULT at row `r`, column `n`: the attention of row `r` of the three inputs. -/
theorem result_apply (x0 x1 x2 : Arr) (x3 : Wt) (x4 : Bias) (x5 : Wt) (x6 : Bias) (x7 : Wt) (x8 : Bias) (x9 : Wt) (x10 : Bias)
    (r : Fin 32768) (n : Fin 1024) :
    val_main_v35 (F := Ideal) x0 x1 x2 x3 x4 x5 x6 x7 x8 x9 x10 (ix2 r n)
      = attn (rowOf x0 r) (rowOf x1 r) (rowOf x2 r) (matOf x3) (vecOf x4) (matOf x5) (vecOf x6) (matOf x7) (vecOf x8)
          (matOf x9) (vecOf x10) n := by
  rw [val_main_v35_apply, val_main_v32_apply, val_main_v34_apply, val_main_v33_apply, attn_apply]
  show _ + _ = _
  refine congrArg₂ (· + ·) (Finset.sum_congr rfl fun k _ => ?_) (congrArg x10 (ext1 rfl))
  have el : lidx_main_v32 (ix2 r n) k = ix2 r k := ext2 rfl rfl
  have er : ridx_main_v32 (ix2 r n) k = ix2 k n := ext2 rfl rfl
  rw [el, er, mixed_apply]
  rfl

/-- The reference's result array is `Attn.G` of its arguments. -/
theorem result_eq (x0 x1 x2 : Arr) (x3 : Wt) (x4 : Bias) (x5 : Wt) (x6 : Bias) (x7 : Wt) (x8 : Bias) (x9 : Wt) (x10 : Bias) :
    val_main_v35 (F := Ideal) x0 x1 x2 x3 x4 x5 x6 x7 x8 x9 x10 = G x0 x1 x2 x3 x4 x5 x6 x7 x8 x9 x10 := by
  funext i
  obtain ⟨r, n, rfl⟩ : ∃ (r : Fin 32768) (n : Fin 1024), i = ix2 r n := ⟨i 0, i 1, eq_ix2 i⟩
  exact result_apply x0 x1 x2 x3 x4 x5 x6 x7 x8 x9 x10 r n

end Cert.ReferenceIdeal.RowValue

end
-- ==== Proof.lean ====
/-
  The kernel and its reference compute the same array over the extended reals.

  Both programs take 32768 rows of queries, keys and values, four 1024 × 1024 weight matrices and four biases,
  and for every row: project the three inputs, read each projection as 16 heads of 64 lanes, take the 16 × 16
  table of scaled inner products of the query's heads with the key's heads, pass each row of the table through a
  softmax, mix the value's heads with the result, and project the mixed row once more (`Attn.attn`, Proof/Spec.lean).

  They differ in three ways, none of which changes a value. The kernel works on blocks of 256 rows, one per grid
  point, the reference on all rows at once: every operation acts within a row, so the blocks' results are the
  corresponding rows of the whole result (Proof/KernelRow.lean, Proof/KernelArray.lean, Proof/RefRow.lean). The
  kernel narrows its operands to a 16-bit format before each product, and the host narrows the weights: a change of
  format is the identity on extended reals. The kernel multiplies the scores by 1/8 where the reference divides them
  by the square root of 64: the root is 8, and dividing by 8 is multiplying by 1/8 at every extended real, the
  infinities included (Proof/Consts.lean). The sums are taken over the same index sets in the same form, so no law of
  addition or multiplication is needed, and the finiteness of the inputs is never used.

  The three frames are the generated ones; the kernel's idealization rewrote no operation, so `preserves` is trivial.
-/
import proofs.«145773_j22986664969071_1_alg».proof.Defs
import proofs.«145773_j22986664969071_1_alg».proof.Proof.Gen.Kernel
import proofs.«145773_j22986664969071_1_alg».proof.Proof.Gen.Kernel.Skeleton
import proofs.«145773_j22986664969071_1_alg».proof.Proof.Gen.Kernel.Launch
import proofs.«145773_j22986664969071_1_alg».proof.Proof.Gen.Kernel.Points
import proofs.«145773_j22986664969071_1_alg».proof.Proof.Gen.Kernel.Frame
import proofs.«145773_j22986664969071_1_alg».proof.Proof.Gen.KernelIdeal
import proofs.«145773_j22986664969071_1_alg».proof.Proof.Gen.KernelIdeal.Skeleton
import proofs.«145773_j22986664969071_1_alg».proof.Proof.Gen.KernelIdeal.Launch
import proofs.«145773_j22986664969071_1_alg».proof.Proof.Gen.KernelIdeal.Points
import proofs.«145773_j22986664969071_1_alg».proof.Proof.Gen.KernelIdeal.Frame
import proofs.«145773_j22986664969071_1_alg».proof.Proof.Gen.ReferenceIdeal
import proofs.«145773_j22986664969071_1_alg».proof.Proof.Gen.Pre_finite_inputs
import proofs.«145773_j22986664969071_1_alg».proof.Proof.Gen.KernelIdeal.Value
import proofs.«145773_j22986664969071_1_alg».proof.Proof.Gen.ReferenceIdeal.Run
import proofs.«145773_j22986664969071_1_alg».proof.Proof.Gen.ReferenceIdeal.Read
import proofs.«145773_j22986664969071_1_alg».proof.Proof.KernelArray
import proofs.«145773_j22986664969071_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `Attn.G` of the arguments:
    the kernel by its blocks (Proof/KernelArray.lean), the reference by its stages (Proof/RefRow.lean). -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.RowValue.result_eq]
  obtain ⟨a0, a1, a2, a3, a4, a5, a6, a7, a8, a9, a10⟩ := hagree c
  rw [a0, a1, a2, a3, a4, a5, a6, a7, a8, a9, a10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
